-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x2048 : Shape := ⟨3, ![8, 512, 2048]⟩
abbrev S_ : Shape := ⟨0, ![]⟩

class Facts : Prop where
  bcast_S_S8x512x2048 : S_.BroadcastsInDim S8x512x2048 (![] : Fin 0 → Fin S8x512x2048.rank)
  reducesTo_S8x512x2048_S_d0_1_2 : S8x512x2048.ReducesTo [0, 1, 2] S_
  h_S_ : 0 < S_.numel

variable [Facts]

def fn_part1 {F : FTy → Type} [FloatOps F] (main_v13 : IVec S_ 1) (main_v16 : IVec S8x512x2048 1) : IVec S_ 1 :=
  let main_c_5 : IVec S_ 1 := constantI S_ 1 1#1
  let main_v17 : IVec S_ 1 := (fun x v => Host.reduce IntOp.andi x v reducesTo_S8x512x2048_S_d0_1_2 h_S_) main_v16 main_c_5
  let main_v18 : IVec S_ 1 := andi main_v13 main_v17
  main_v18

def fn {F : FTy → Type} [FloatOps F] (main_arg0 : FVec F S8x512x2048 .f32) (main_arg1 : FVec F S8x512x2048 .f32) (main_arg2 : FVec F S8x512x2048 .f32) (main_arg3 : FVec F S8x512x2048 .f32) : IVec S_ 1 :=
  let main_v0 : FVec F S8x512x2048 .f32 := Host.absf main_arg0
  let main_cst : FVec F S_ .f32 := constant S_ .f32 0x7F800000#32
  let main_v1 : FVec F S8x512x2048 .f32 := broadcastInDim S8x512x2048 ![] bcast_S_S8x512x2048 main_cst
  let main_v2 : IVec S8x512x2048 1 := cmpf .olt main_v0 main_v1
  let main_c : IVec S_ 1 := constantI S_ 1 1#1
  let main_v3 : IVec S_ 1 := (fun x v => Host.reduce IntOp.andi x v reducesTo_S8x512x2048_S_d0_1_2 h_S_) main_v2 main_c
  let main_v4 : FVec F S8x512x2048 .f32 := Host.absf main_arg1
  let main_cst_0 : FVec F S_ .f32 := constant S_ .f32 0x7F800000#32
  let main_v5 : FVec F S8x512x2048 .f32 := broadcastInDim S8x512x2048 ![] bcast_S_S8x512x2048 main_cst_0
  let main_v6 : IVec S8x512x2048 1 := cmpf .olt main_v4 main_v5
  let main_c_1 : IVec S_ 1 := constantI S_ 1 1#1
  let main_v7 : IVec S_ 1 := (fun x v => Host.reduce IntOp.andi x v reducesTo_S8x512x2048_S_d0_1_2 h_S_) main_v6 main_c_1
  let main_v8 : IVec S_ 1 := andi main_v3 main_v7
  let main_v9 : FVec F S8x512x2048 .f32 := Host.absf main_arg2
  let main_cst_2 : FVec F S_ .f32 := constant S_ .f32 0x7F800000#32
  let main_v10 : FVec F S8x512x2048 .f32 := broadcastInDim S8x512x2048 ![] bcast_S_S8x512x2048 main_cst_2
  let main_v11 : IVec S8x512x2048 1 := cmpf .olt main_v9 main_v10
  let main_c_3 : IVec S_ 1 := constantI S_ 1 1#1
  let main_v12 : IVec S_ 1 := (fun x v => Host.reduce IntOp.andi x v reducesTo_S8x512x2048_S_d0_1_2 h_S_) main_v11 main_c_3
  let main_v13 : IVec S_ 1 := andi main_v8 main_v12
  let main_v14 : FVec F S8x512x2048 .f32 := Host.absf main_arg3
  let main_cst_4 : FVec F S_ .f32 := constant S_ .f32 0x7F800000#32
  let main_v15 : FVec F S8x512x2048 .f32 := broadcastInDim S8x512x2048 ![] bcast_S_S8x512x2048 main_cst_4
  let main_v16 : IVec S8x512x2048 1 := cmpf .olt main_v14 main_v15
  fn_part1 (F := F) main_v13 main_v16
-- ==== Kernel.lean ====
abbrev S8x512x2048 : Shape := ⟨3, ![8, 512, 2048]⟩
abbrev S8x2048x2048 : Shape := ⟨3, ![8, 2048, 2048]⟩
abbrev S1x512x1024 : Shape := ⟨3, ![1, 512, 1024]⟩
abbrev S1x512x512 : Shape := ⟨3, ![1, 512, 512]⟩
abbrev S1x1024x512 : Shape := ⟨3, ![1, 1024, 512]⟩
abbrev S512x1024 : Shape := ⟨2, ![512, 1024]⟩
abbrev S512x512 : Shape := ⟨2, ![512, 512]⟩
abbrev S1024x512 : Shape := ⟨2, ![1024, 512]⟩
abbrev S1024 : Shape := ⟨1, ![1024]⟩
abbrev S1x1024 : Shape := ⟨2, ![1, 1024]⟩
abbrev S1024x1 : Shape := ⟨2, ![1024, 1]⟩
abbrev S512 : Shape := ⟨1, ![512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S8x512x2048, .f32⟩
  | .hbm, ⟨1, _⟩ => ⟨S8x512x2048, .f32⟩
  | .hbm, ⟨2, _⟩ => ⟨S8x512x2048, .f32⟩
  | .hbm, ⟨3, _⟩ => ⟨S8x512x2048, .f32⟩
  | .hbm, ⟨4, _⟩ => ⟨S8x2048x2048, .f32⟩
  | .hbm, ⟨5, _⟩ => ⟨S8x2048x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x1024, .f32⟩
  | .local _ .vmem, ⟨5, _⟩ => ⟨S1x512x1024, .f32⟩
  | .local _ .vmem, ⟨6, _⟩ => ⟨S1x512x512, .f32⟩
  | .local _ .vmem, ⟨7, _⟩ => ⟨S1x512x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  reduces_S512x1024_S1024 : S512x1024.Reduces [0] S1024
  shapeCasts_S1024_S1x1024 : S1024.ShapeCasts S1x1024
  transposes_S1x1024_p1_0_S1024x1 : S1x1024.Transposes [1, 0] S1024x1
  reduces_S512x512_S512 : S512x512.Reduces [0] S512
  shapeCasts_S512_S1x512 : S512.ShapeCasts S1x512
  broadcasts_S1024x1_S1024x512 : S1024x1.Broadcasts S1024x512
  broadcasts_S1x512_S1024x512 : S1x512.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  dot_S512x1024_S512x512_S1024x512_0_0_1_1_n_n_wf : DotDims.WF S512x1024 S512x512 S1024x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x512x2048.size a
  hwx0_0 : ∀ i : grid0.Coords, EltTy.bits .f32 = 32 ∨ (Rect.block (s := S8x512x2048) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x2048.size a
  hwx0_1 : ∀ i : grid0.Coords, EltTy.bits .f32 = 32 ∨ (Rect.block (s := S8x512x2048) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x512x2048.size a
  hwx0_2 : ∀ i : grid0.Coords, EltTy.bits .f32 = 32 ∨ (Rect.block (s := S8x512x2048) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S8x512x2048.size a
  hwx0_3 : ∀ i : grid0.Coords, EltTy.bits .f32 = 32 ∨ (Rect.block (s := S8x512x2048) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x512.size a ≤ S8x2048x2048.size a
  hwx0_4 : ∀ i : grid0.Coords, EltTy.bits .f32 = 32 ∨ (Rect.block (s := S8x2048x2048) S1x1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S8x2048x2048.size a
  hwx0_5 : ∀ i : grid0.Coords, EltTy.bits .f32 = 32 ∨ (Rect.block (s := S8x2048x2048) S1x1024x512.size (cc0_transform_5 i) (hinb0_5 i)).WholeWords (EltTy.packing .f32)

variable [Facts₀]

def dot_S512x1024_S512x512_S1024x512_0_0_1_1_n_n : DotDims S512x1024 S512x512 S1024x512 where
  lhsContracting := [0]
  rhsContracting := [0]
  lhsNonContracting := [1]
  rhsNonContracting := [1]
  lhsBatch := []
  rhsBatch := []
  wf := dot_S512x1024_S512x512_S1024x512_0_0_1_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x512x2048 : Shape := ⟨3, ![8, 512, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8x512x2048, .f32⟩
  | .hbm, ⟨1, _⟩ => ⟨S8x512x2048, .f32⟩
  | .hbm, ⟨2, _⟩ => ⟨S8x512x2048, .f32⟩
  | .hbm, ⟨3, _⟩ => ⟨S8x512x2048, .f32⟩
  | .hbm, ⟨4, _⟩ => ⟨S8x512x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S8x512x2048, .f32⟩
  | .hbm, ⟨9, _⟩ => ⟨S_, .f32⟩
  | .hbm, ⟨10, _⟩ => ⟨S8x2048, .f32⟩
  | .hbm, ⟨11, _⟩ => ⟨S8x1x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x2048x2048, .i1⟩
  | .hbm, ⟨21, _⟩ => ⟨S_, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048x2048, .f32⟩
  | .hbm, ⟨36, _⟩ => ⟨S8x2048x2048, .f32⟩
  | _, _ => ⟨S8x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S8x512x2048_S8x2048_d1 : S8x512x2048.ReducesTo [1] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  dot_S8x512x2048_S8x512x2048_S8x2048x2048_1_1_2_2_0_0_wf : DotDims.WF S8x512x2048 S8x512x2048 S8x2048x2048 [1] [1] [2] [2] [0] [0]

variable [Facts₀]

def dot_S8x512x2048_S8x512x2048_S8x2048x2048_1_1_2_2_0_0 : DotDims S8x512x2048 S8x512x2048 S8x2048x2048 where
  lhsContracting := [1]
  rhsContracting := [1]
  lhsNonContracting := [2]
  rhsNonContracting := [2]
  lhsBatch := [0]
  rhsBatch := [0]
  wf := dot_S8x512x2048_S8x512x2048_S8x2048x2048_1_1_2_2_0_0_wf

class Facts : Prop extends Facts₀ where

variable [Facts]
-- ==== Proof.Affinity.lean ====
/-
  The two results as functions of the four argument arrays, on the extended reals.

  Each argument is a stack of eight 512 × 2048 matrices. Write x for a column of a matrix of X (a vector of
  512 extended reals, one per row), y for a column of the same matrix of Y, and ⟨x, y⟩ = Σ_k x_k · y_k. Then
    dist(x, y) = (⟨x, x⟩ + ⟨y, y⟩) − 2 · ⟨x, y⟩      the squared distance ‖x − y‖², expanded;
    Me[b, n, m] = exp(−dist(x, y) / 1) · 1            for x column n of X_b and y column m of Y_b;
    Mp[b, n, m] = ⟨u, v⟩ · 1                           for u column n of Ux_b and v column m of Uy_b.
  The constants 1 and 2 stay the float words both programs write: the same word stands on both sides of every
  equation below, so none is evaluated.

  Two scalar facts are all that separates the two programs' spellings of `exp(−dist / 1) · 1`.
  Both test the distance for being different from itself and put +∞ where it is; on a linear order nothing
  differs from itself, so the test never holds and the distance passes through (`keep_one`, `keep_une`: the
  ordered and the unordered spelling of the test are one comparison on the extended reals).
  One negates as `0 − d`, the other as `−d`: equal at every extended real, the infinities included
  (`zero_sub_eq_neg`). No finiteness of the inputs is used anywhere.
-/
import Idealize.ShloMosaic.PureOps.Ideal
import Idealize.ShloMosaic.PureOps.Ideal.Laws
import Idealize.ShloMosaic.Lib.ValueIdx

noncomputable section

namespace Cert.Affinity

open Idealize.ShloMosaic Idealize.ShloMosaic.ValueIdx

/-- The float words of 1, 2 and +∞, read as extended reals. -/
abbrev one : EReal := Ideal.ofBits .f32 0x3F800000#32
abbrev two : EReal := Ideal.ofBits .f32 0x40000000#32
abbrev posInf : EReal := Ideal.ofBits .f32 0x7F800000#32

/-- ⟨x, y⟩ = Σ_k x_k · y_k over the 512 rows. -/
def inner (x y : Fin 512 → EReal) : EReal := ∑ k : Fin 512, x k * y k

/-- The squared distance in its expanded form, (⟨x, x⟩ + ⟨y, y⟩) − 2 · ⟨x, y⟩, grouped as both programs group it. -/
def sqDist (x y : Fin 512 → EReal) : EReal := (inner x x + inner y y) - two * inner x y

/-- d ↦ exp(−d / 1) · 1. -/
def gauss (d : EReal) : EReal := Ideal.exp (Ideal.div (-d) one) * one

/-- The Gaussian affinity of two columns. -/
def affinity (x y : Fin 512 → EReal) : EReal := gauss (sqDist x y)

/-- The bilinear pairing of two columns, ⟨u, v⟩ · 1. -/
def pairing (u v : Fin 512 → EReal) : EReal := inner u v * one

/-- An argument array and a result array. -/
abbrev Arr : Type := (⟨3, ![8, 512, 2048]⟩ : Shape).Idx → EReal
abbrev Res : Type := (⟨3, ![8, 2048, 2048]⟩ : Shape).Idx → EReal

/-- Column `n` of matrix `b` of an argument array. -/
def col (X : Arr) (b : Fin 8) (n : Fin 2048) : Fin 512 → EReal := fun k => X (ix3 b k n)

/-- The first result: entry (b, n, m) is the affinity of column n of X_b and column m of Y_b. -/
def Me (X Y : Arr) : Res := fun i => affinity (col X (i 0) (i 1)) (col Y (i 0) (i 2))

/-- The second result: entry (b, n, m) pairs column n of Ux_b with column m of Uy_b. -/
def Mp (U V : Arr) : Res := fun i => pairing (col U (i 0) (i 1)) (col V (i 0) (i 2))

theorem Me_ix3 (X Y : Arr) (b : Fin 8) (n m : Fin 2048) :
    Me X Y (ix3 b n m) = affinity (col X b n) (col Y b m) := rfl

theorem Mp_ix3 (U V : Arr) (b : Fin 8) (n m : Fin 2048) :
    Mp U V (ix3 b n m) = pairing (col U b n) (col V b m) := rfl

/-! ## The two scalar facts -/

/-- Nothing differs from itself: the ordered "not equal" of an extended real with itself is false. -/
theorem cmp_one_self (d : EReal) : Ideal.cmp .one d d = 0#1 := by
  show BitVec.ofBool (decide (d ≠ d)) = 0#1
  rw [decide_eq_false (fun h : d ≠ d => h rfl)]
  rfl

/-- The unordered "not equal" is the same comparison on the extended reals, so it is false too. -/
theorem cmp_une_self (d : EReal) : Ideal.cmp .une d d = 0#1 := by
  show BitVec.ofBool (decide (d ≠ d)) = 0#1
  rw [decide_eq_false (fun h : d ≠ d => h rfl)]
  rfl

/-- So a select on that test keeps the value, whatever it would have put in its place. -/
theorem keep_one (a d : EReal) : Scalar.select (Ideal.cmp .one d d) a d = d := by
  rw [cmp_one_self]; exact select_zero a d

theorem keep_une (a d : EReal) : Scalar.select (Ideal.cmp .une d d) a d = d := by
  rw [cmp_une_self]; exact select_zero a d

/-- `0 − d = −d` at every extended real (the zero written as its float word). -/
theorem zero_sub_eq_neg (d : EReal) : Ideal.ofBits .f32 0x00000000#32 - d = -d := by
  rw [Ideal.ofBits_zero_f32, zero_sub]

/-- The spelling with the ordered test and `0 − d` is `gauss`. -/
theorem gauss_of_zero_sub (d : EReal) :
    Ideal.exp (Ideal.div (Ideal.ofBits .f32 0x00000000#32 - Scalar.select (Ideal.cmp .one d d) posInf d) one) * one
      = gauss d := by
  rw [keep_one, zero_sub_eq_neg]; rfl

/-- The spelling with the unordered test and `−d` is `gauss`. -/
theorem gauss_of_neg (d : EReal) :
    Ideal.exp (Ideal.div (-(Scalar.select (Ideal.cmp .une d d) posInf d)) one) * one = gauss d := by
  rw [keep_une]; rfl

end Cert.Affinity

end
-- ==== Proof.RefIsAffinity.lean ====
/-
  The reference's two results are `Affinity.Me` and `Affinity.Mp` of its arguments.

  The reference forms ⟨x, x⟩ for every column of X as a sum over the row axis started from the float zero, places
  it on a new last axis and repeats it along that axis; ⟨y, y⟩ likewise on a new middle axis; ⟨x, y⟩ is a batched
  product contracting the row axis. So at entry (b, n, m) the three read column n of X_b and column m of Y_b
  (`sq_x`, `sq_y`, `cross_xy`: each index the operations compose is (b, k, n) or (b, k, m), and 0 + s = s).
  The rest is entrywise: the expanded distance, the self-comparison that never holds, the negation written
  `−d`, the division by 1, the exponential, the product with 1 — `Affinity.gauss_of_neg`.
  The second result is the batched product of Ux and Uy times 1.
-/
import proofs.«133344_j59253368816316_2_alg».proof.Proof.Gen.ReferenceIdeal.Read
import proofs.«133344_j59253368816316_2_alg».proof.Proof.Affinity

noncomputable section

namespace Cert.ReferenceIdeal.RefValue

open Cert.ReferenceIdeal Cert.ReferenceIdeal.Gen Cert.ReferenceIdeal.Read
open Idealize.ShloMosaic Idealize.ShloMosaic.ValueIdx Cert.Affinity

/-- Where the sum of squares of X is read for entry (b, n, m): row k of column n of X_b. -/
theorem idx_sq_x (b : Fin 8) (n m : Fin 2048) (k : Fin 512) :
    idx_main_v1 (idx_main_v2 (idx_main_v7 (ix3 b n m))) k = ix3 b k n :=
  funext fun a => match a with | ⟨0, _⟩ => rfl | ⟨1, _⟩ => rfl | ⟨2, _⟩ => rfl

/-- Where the sum of squares of Y is read for entry (b, n, m): row k of column m of Y_b. -/
theorem idx_sq_y (b : Fin 8) (n m : Fin 2048) (k : Fin 512) :
    idx_main_v4 (idx_main_v5 (idx_main_v8 (ix3 b n m))) k = ix3 b k m :=
  funext fun a => match a with | ⟨0, _⟩ => rfl | ⟨1, _⟩ => rfl | ⟨2, _⟩ => rfl

/-- The batched product's left factor for entry (b, n, m) and row k. -/
theorem idx_left (b : Fin 8) (n m : Fin 2048) (k : Fin 512) : lidx_main_v6 (ix3 b n m) k = ix3 b k n :=
  funext fun a => match a with | ⟨0, _⟩ => rfl | ⟨1, _⟩ => rfl | ⟨2, _⟩ => rfl

/-- Its right factor. -/
theorem idx_right (b : Fin 8) (n m : Fin 2048) (k : Fin 512) : ridx_main_v6 (ix3 b n m) k = ix3 b k m :=
  funext fun a => match a with | ⟨0, _⟩ => rfl | ⟨1, _⟩ => rfl | ⟨2, _⟩ => rfl

theorem idx_left' (b : Fin 8) (n m : Fin 2048) (k : Fin 512) : lidx_main_v21 (ix3 b n m) k = ix3 b k n :=
  funext fun a => match a with | ⟨0, _⟩ => rfl | ⟨1, _⟩ => rfl | ⟨2, _⟩ => rfl

theorem idx_right' (b : Fin 8) (n m : Fin 2048) (k : Fin 512) : ridx_main_v21 (ix3 b n m) k = ix3 b k m :=
  funext fun a => match a with | ⟨0, _⟩ => rfl | ⟨1, _⟩ => rfl | ⟨2, _⟩ => rfl

/-- ⟨x, x⟩ repeated along the last axis, at entry (b, n, m), is the inner square of column n of X_b. -/
theorem sq_x (X : Arr) (b : Fin 8) (n m : Fin 2048) :
    val_main_v7 (F := Ideal) X (ix3 b n m) = inner (col X b n) (col X b n) := by
  rw [val_main_v7_apply, val_main_v2_apply, val_main_v1_apply, val_main_cst_apply, Ideal.ofBits_def,
    Ideal.ofBits_zero_f32, zero_add]
  refine Finset.sum_congr rfl fun k _ => ?_
  rw [val_main_v0_apply, idx_sq_x, Ideal.mulf_def]
  rfl

/-- ⟨y, y⟩ repeated along the middle axis, at entry (b, n, m), is the inner square of column m of Y_b. -/
theorem sq_y (Y : Arr) (b : Fin 8) (n m : Fin 2048) :
    val_main_v8 (F := Ideal) Y (ix3 b n m) = inner (col Y b m) (col Y b m) := by
  rw [val_main_v8_apply, val_main_v5_apply, val_main_v4_apply, val_main_cst_0_apply, Ideal.ofBits_def,
    Ideal.ofBits_zero_f32, zero_add]
  refine Finset.sum_congr rfl fun k _ => ?_
  rw [val_main_v3_apply, idx_sq_y, Ideal.mulf_def]
  rfl

/-- The batched product of X and Y at entry (b, n, m) is ⟨x, y⟩ for column n of X_b and column m of Y_b. -/
theorem cross_xy (X Y : Arr) (b : Fin 8) (n m : Fin 2048) :
    val_main_v6 (F := Ideal) X Y (ix3 b n m) = inner (col X b n) (col Y b m) := by
  rw [val_main_v6_apply]
  refine Finset.sum_congr rfl fun k _ => ?_
  rw [idx_left, idx_right]
  rfl

/-- The batched product of Ux and Uy likewise. -/
theorem cross_uv (U V : Arr) (b : Fin 8) (n m : Fin 2048) :
    val_main_v21 (F := Ideal) U V (ix3 b n m) = inner (col U b n) (col V b m) := by
  rw [val_main_v21_apply]
  refine Finset.sum_congr rfl fun k _ => ?_
  rw [idx_left', idx_right']
  rfl

/-- The reference's first result is `Me`. -/
theorem ref_Me (X Y : Arr) : val_main_v20 (F := Ideal) X Y = Me X Y := by
  funext i
  obtain ⟨b, n, m, rfl⟩ : ∃ (b : Fin 8) (n m : Fin 2048), i = ix3 b n m := ⟨i 0, i 1, i 2, eq_ix3 i⟩
  rw [Me_ix3, val_main_v20_apply, val_main_v18_apply, val_main_v17_apply, val_main_v15_apply, val_main_v14_apply,
    val_main_v13_apply, val_main_v12_apply, val_main_v9_apply, val_main_v11_apply, sq_x, sq_y, cross_xy,
    val_main_v10_apply, val_main_cst_1_apply, val_main_v16_apply, val_main_cst_3_apply, val_main_v19_apply,
    val_main_cst_4_apply, val_main_call0_v1_apply, val_main_call0_v0_apply, val_main_cst_2_apply]
  exact gauss_of_neg (sqDist (col X b n) (col Y b m))

/-- The reference's second result is `Mp`. -/
theorem ref_Mp (U V : Arr) : val_main_v23 (F := Ideal) U V = Mp U V := by
  funext i
  obtain ⟨b, n, m, rfl⟩ : ∃ (b : Fin 8) (n m : Fin 2048), i = ix3 b n m := ⟨i 0, i 1, i 2, eq_ix3 i⟩
  rw [Mp_ix3, val_main_v23_apply, cross_uv, val_main_v22_apply, val_main_cst_5_apply]
  rfl

end Cert.ReferenceIdeal.RefValue

end
-- ==== Proof.TileEntry.lean ====
/-
  What one grid point leaves in its two output blocks, entry by entry.

  A point loads a block of X and one of Ux (1 × 512 × 1024: all 512 rows of 1024 consecutive columns of one
  matrix) and a block of Y and one of Uy (1 × 512 × 512). Write x for column n of the X block and y for column m
  of the Y block (`tcol`). The body
    • multiplies the two blocks on the matrix unit into a zero tile, contracting the row axis of both:
      entry (n, m) is ⟨x, y⟩ (`gram_entry`; rounding the operands to a shorter format is the identity here);
    • sums the squares of each block over the row axis, turns the X sums into a column and the Y sums into a
      row, and repeats each across the 1024 × 512 tile: entry (n, m) of the two is ⟨x, x⟩ and ⟨y, y⟩
      (`sq_rows_x`, `sq_rows_y`);
    • and then works entrywise: the expanded distance, the self-comparison, the negation written `0 − d`, the
      division by 1, the exponential; the store multiplies by 1.
  So entry (n, m) of the first output block is the Gaussian affinity of x and y (`block_Me`), and entry (n, m) of
  the second is the pairing of column n of the Ux block with column m of the Uy block (`block_Mp`).
-/
import proofs.«133344_j59253368816316_2_alg».proof.Proof.Gen.KernelIdeal.Value
import proofs.«133344_j59253368816316_2_alg».proof.Proof.Affinity
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen
open Idealize.ShloMosaic Idealize.ShloMosaic.ValueIdx Cert.Affinity

/-- Column `n` of a loaded 1 × 512 × w block: its 512 rows. -/
def tcol {w : ℕ} (P : (⟨3, ![1, 512, w]⟩ : Shape).Idx → EReal) (n : Fin w) : Fin 512 → EReal :=
  fun k => P (ix3 (0 : Fin 1) k n)

/-! ## Two layout readings the body needs -/

/-- An `[a, 1]` column repeated to `[a, b]` reads, at `(p, c)`, the column's entry `p`. -/
theorem column_repeated {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the rows of an `[a, b]` matrix started from the float zero reads, at column `n`, the sum over
    `k` of the entries `(k, n)`. -/
theorem sum_over_rows {a b : ℕ} (v : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (n : Fin b) :
    multiReduction (F := Ideal) .add [0] ⟨1, ![b]⟩ v 0x00000000#32 h hφ hacc (ix1 n) = ∑ k : Fin a, v (ix2 k n) := by
  refine (Ideal.multiReduction_add_single v 0x00000000#32 h hφ hacc (ix1 n)).trans ?_
  refine Finset.sum_congr rfl fun k _ => congrArg v ?_
  funext ax
  apply Fin.ext
  match ax with
  | ⟨0, _⟩ => rfl
  | ⟨1, _⟩ => rfl

/-! ## The three ingredients at entry (n, m) -/

/-- The sums of squares of the X block's columns, as a column repeated across the tile: ⟨x, x⟩. -/
theorem sq_rows_x (A : FVec Ideal S1x512x1024 .f32) (h1 : S1x512x1024.ShapeCasts S512x1024)
    (h2 : S512x1024.Reduces [0] S1024) (hφ : FKind.Formats .f32) (hacc : (0x00000000#32 : BitVec 32) = 0x00000000#32)
    (h3 : S1024.ShapeCasts S1x1024) (h4 : S1x1024.Transposes [1, 0] S1024x1) (h5 : S1024x1.Broadcasts S1024x512)
    (n : Fin 1024) (m : Fin 512) :
    broadcastTo S1024x512 (transpose S1024x1 [1, 0] (shapeCast S1x1024
      (multiReduction (F := Ideal) .add [0] S1024 (mulf (shapeCast S512x1024 A h1) (shapeCast S512x1024 A h1))
        0x00000000#32 h2 hφ hacc) h3) h4) h5 (ix2 n m)
      = inner (tcol A n) (tcol A n) := by
  rw [column_repeated, transpose_ix2_apply, shapeCast_a_1a_apply, sum_over_rows]
  refine Finset.sum_congr rfl fun k _ => ?_
  rw [mulf_apply, shapeCast_1ab_ab_apply]
  rfl

/-- The sums of squares of the Y block's columns, as a row repeated down the tile: ⟨y, y⟩. -/
theorem sq_rows_y (B : FVec Ideal S1x512x512 .f32) (h1 : S1x512x512.ShapeCasts S512x512)
    (h2 : S512x512.Reduces [0] S512) (hφ : FKind.Formats .f32) (hacc : (0x00000000#32 : BitVec 32) = 0x00000000#32)
    (h3 : S512.ShapeCasts S1x512) (h5 : S1x512.Broadcasts S1024x512) (n : Fin 1024) (m : Fin 512) :
    broadcastTo S1024x512 (shapeCast S1x512
      (multiReduction (F := Ideal) .add [0] S512 (mulf (shapeCast S512x512 B h1) (shapeCast S512x512 B h1))
        0x00000000#32 h2 hφ hacc) h3) h5 (ix2 n m)
      = inner (tcol B m) (tcol B m) := by
  rw [broadcastTo_1b_ab_apply, shapeCast_a_1a_apply, sum_over_rows]
  refine Finset.sum_congr rfl fun k _ => ?_
  rw [mulf_apply, shapeCast_1ab_ab_apply]
  rfl

/-- The product's dimension numbers contract axis 0 of both operands: at output entry `j` and contraction index `q`
    the left operand is read at (q, j₀) and the right at (q, j₁). -/
theorem left_row (j : S1024x512.Idx) (q : dot_S512x1024_S512x512_S1024x512_0_0_1_1_n_n.contr.Idx) :
    (dot_S512x1024_S512x512_S1024x512_0_0_1_1_n_n.lhsIdx j q 0).val = (q ⟨0, by decide⟩).val :=
  dot_S512x1024_S512x512_S1024x512_0_0_1_1_n_n.lhsIdx_val_of_single rfl j q

theorem left_col (j : S1024x512.Idx) (q : dot_S512x1024_S512x512_S1024x512_0_0_1_1_n_n.contr.Idx) :
    (dot_S512x1024_S512x512_S1024x512_0_0_1_1_n_n.lhsIdx j q 1).val = (j 0).val := by
  unfold DotDims.lhsIdx
  rw [dif_neg (show ¬(1 : Fin S512x1024.rank) ∈ dot_S512x1024_S512x512_S1024x512_0_0_1_1_n_n.lhsBatch by decide),
    dif_pos (show (1 : Fin S512x1024.rank) ∈ dot_S512x1024_S512x512_S1024x512_0_0_1_1_n_n.lhsNonContracting by decide)]
  rfl

theorem right_row (j : S1024x512.Idx) (q : dot_S512x1024_S512x512_S1024x512_0_0_1_1_n_n.contr.Idx) :
    (dot_S512x1024_S512x512_S1024x512_0_0_1_1_n_n.rhsIdx j q 0).val = (q ⟨0, by decide⟩).val :=
  dot_S512x1024_S512x512_S1024x512_0_0_1_1_n_n.rhsIdx_val_of_single rfl j q

theorem right_col (j : S1024x512.Idx) (q : dot_S512x1024_S512x512_S1024x512_0_0_1_1_n_n.contr.Idx) :
    (dot_S512x1024_S512x512_S1024x512_0_0_1_1_n_n.rhsIdx j q 1).val = (j 1).val := by
  unfold DotDims.rhsIdx
  rw [dif_neg (show ¬(1 : Fin S512x512.rank) ∈ dot_S512x1024_S512x512_S1024x512_0_0_1_1_n_n.rhsBatch by decide),
    dif_pos (show (1 : Fin S512x512.rank) ∈ dot_S512x1024_S512x512_S1024x512_0_0_1_1_n_n.rhsNonContracting by decide)]
  rfl

/-- The matrix unit's product of the two blocks into a zero tile, contracting the row axis of both: ⟨x, y⟩. -/
theorem gram_entry (A : FVec Ideal S1x512x1024 .f32) (B : FVec Ideal S1x512x512 .f32)
    (h1 : S1x512x1024.ShapeCasts S512x1024) (h2 : S1x512x512.ShapeCasts S512x512)
    (hb : FTy.bits .bf16 < FTy.bits .f32) (n : Fin 1024) (m : Fin 512) :
    matmul dot_S512x1024_S512x512_S1024x512_0_0_1_1_n_n none (truncf .bf16 (shapeCast S512x1024 A h1) hb)
        (truncf .bf16 (shapeCast S512x512 B h2) hb) (constant (F := Ideal) S1024x512 .f32 0x00000000#32) (ix2 n m)
      = inner (tcol A n) (tcol B m) := by
  simp only [matmul]
  rw [Ideal.matmul_constant_zero_apply,
    ← Equiv.sum_comp (contrEquiv1 dot_S512x1024_S512x512_S1024x512_0_0_1_1_n_n 512 rfl rfl).symm]
  refine Finset.sum_congr rfl fun k _ => ?_
  have hk := contrEquiv1_symm_val dot_S512x1024_S512x512_S1024x512_0_0_1_1_n_n 512 rfl rfl k
  have el : dot_S512x1024_S512x512_S1024x512_0_0_1_1_n_n.lhsIdx (ix2 n m)
      ((contrEquiv1 dot_S512x1024_S512x512_S1024x512_0_0_1_1_n_n 512 rfl rfl).symm k) = ix2 k n :=
    funext fun a => Fin.ext (by
      match a with
      | ⟨0, _⟩ => exact (left_row _ _).trans hk
      | ⟨1, _⟩ => exact left_col _ _)
  have er : dot_S512x1024_S512x512_S1024x512_0_0_1_1_n_n.rhsIdx (ix2 n m)
      ((contrEquiv1 dot_S512x1024_S512x512_S1024x512_0_0_1_1_n_n 512 rfl rfl).symm k) = ix2 k m :=
    funext fun a => Fin.ext (by
      match a with
      | ⟨0, _⟩ => exact (right_row _ _).trans hk
      | ⟨1, _⟩ => exact right_col _ _)
  rw [el, er, truncf_apply, truncf_apply, shapeCast_1ab_ab_apply, shapeCast_1ab_ab_apply]
  rfl

/-! ## The entrywise tail -/

/-- The body's entrywise operations after the three ingredients `a`, `b`, `c` (the two repeated sums of squares
    and the product), read at one entry: each vector operation is its scalar namesake at the entry. -/
theorem tail_entry (a b c : FVec Ideal S1024x512 .f32) (j : S1024x512.Idx) :
    exp (divf (subf (broadcast S1024x512 (Scalar.ofBits (F := Ideal) .f32 0x00000000#32))
        (select (cmpf .one (subf (addf a b) (mulf (broadcast S1024x512 (Scalar.ofBits (F := Ideal) .f32 0x40000000#32)) c))
            (subf (addf a b) (mulf (broadcast S1024x512 (Scalar.ofBits (F := Ideal) .f32 0x40000000#32)) c)))
          (broadcast S1024x512 (Scalar.ofBits (F := Ideal) .f32 0x7F800000#32))
          (subf (addf a b) (mulf (broadcast S1024x512 (Scalar.ofBits (F := Ideal) .f32 0x40000000#32)) c))))
      (broadcast S1024x512 (Scalar.ofBits (F := Ideal) .f32 0x3F800000#32))) j
      = Ideal.exp (Ideal.div (Ideal.ofBits .f32 0x00000000#32
          - Scalar.select (Ideal.cmp .one ((a j + b j) - two * c j) ((a j + b j) - two * c j)) posInf
              ((a j + b j) - two * c j)) one) := rfl

/-! ## The two output blocks -/

/-- The value the body exponentiates, at entry (n, m), in terms of the loaded blocks' columns. -/
theorem exp_entry (P0 : Vec Ideal S1x512x1024 .f32) (P1 : Vec Ideal S1x512x512 .f32) (n : Fin 1024) (m : Fin 512) :
    k0_pay4 (F := Ideal) P0 P1 (ix2 n m)
      = Ideal.exp (Ideal.div (Ideal.ofBits .f32 0x00000000#32
          - Scalar.select (Ideal.cmp .one (sqDist (tcol P0 n) (tcol P1 m)) (sqDist (tcol P0 n) (tcol P1 m))) posInf
              (sqDist (tcol P0 n) (tcol P1 m))) one) := by
  unfold k0_pay4
  refine (tail_entry _ _ _ (ix2 n m)).trans ?_
  rw [sq_rows_x, sq_rows_y, gram_entry]
  rfl

/-- The product of the Ux and Uy blocks at entry (n, m). -/
theorem prod_entry (P2 : Vec Ideal S1x512x1024 .f32) (P3 : Vec Ideal S1x512x512 .f32) (n : Fin 1024) (m : Fin 512) :
    k0_pay3 (F := Ideal) P2 P3 (ix2 n m) = inner (tcol P2 n) (tcol P3 m) := by
  unfold k0_pay3
  exact gram_entry P2 P3 _ _ _ n m

/-- Entry (n, m) of the first output block: the Gaussian affinity of column n of the X block and column m of the
    Y block. -/
theorem block_Me (P0 : Vec Ideal S1x512x1024 .f32) (P1 : Vec Ideal S1x512x512 .f32) (u : Fin 1) (n : Fin 1024)
    (m : Fin 512) : Value.E4 (F := Ideal) P0 P1 (ix3 u n m) = affinity (tcol P0 n) (tcol P1 m) := by
  have e0 : Value.ix4_0 (ix3 u n m) = ix2 n m := funext fun a => match a with | ⟨0, _⟩ => rfl | ⟨1, _⟩ => rfl
  show FloatOps.mulf (k0_pay4 (F := Ideal) P0 P1 (Value.ix4_0 (ix3 u n m)))
      (k0_pay5 (F := Ideal) (Value.ix4_1 (ix3 u n m))) = _
  rw [e0, exp_entry]
  exact gauss_of_zero_sub (sqDist (tcol P0 n) (tcol P1 m))

/-- Entry (n, m) of the second output block: the pairing of column n of the Ux block and column m of the Uy block. -/
theorem block_Mp (P2 : Vec Ideal S1x512x1024 .f32) (P3 : Vec Ideal S1x512x512 .f32) (u : Fin 1) (n : Fin 1024)
    (m : Fin 512) : Value.E5 (F := Ideal) P2 P3 (ix3 u n m) = pairing (tcol P2 n) (tcol P3 m) := by
  have e0 : Value.ix5_0 (ix3 u n m) = ix2 n m := funext fun a => match a with | ⟨0, _⟩ => rfl | ⟨1, _⟩ => rfl
  show FloatOps.mulf (k0_pay3 (F := Ideal) P2 P3 (Value.ix5_0 (ix3 u n m))) (Scalar.ofBits (F := Ideal) .f32 0x3F800000#32) = _
  rw [e0, prod_entry]
  rfl

end Cert.KernelIdeal.TileValue

end
-- ==== Proof.TilesToArray.lean ====
/-
  From the blocks to the two result arrays.

  The grid has 8 × 2 × 4 points (b, i, j). Point (b, i, j) reads columns 1024·i … 1024·i + 1023 of X_b and Ux_b
  (all 512 rows), columns 512·j … 512·j + 511 of Y_b and Uy_b, and writes the 1024 × 512 block of rows
  1024·i … and columns 512·j … of matrix b of each result (`maps`: the relations between the six index maps,
  decided over the 64 points). So column n of the loaded X block is column 1024·i + n of X_b, and column m of the
  loaded Y block is column 512·j + m of Y_b (`read_X` … `read_Uy`), and what the point writes back is its block of
  `Affinity.Me`, resp. `Affinity.Mp`, of the argument arrays (`wrote_Me`, `wrote_Mp`). Every entry (b, r, s) of a
  result lies in the block of the point (b, r / 1024, s / 512), and every point writes back (`covered_Me`,
  `covered_Mp`), so after the run each result array is that function of the arguments everywhere (`run`).
-/
import proofs.«133344_j59253368816316_2_alg».proof.Proof.Gen.KernelIdeal.Value
import proofs.«133344_j59253368816316_2_alg».proof.Proof.TileEntry
import proofs.«133344_j59253368816316_2_alg».proof.Proof.Affinity
import Idealize.ShloMosaic.Lib.Pipeline.Value
import Idealize.ShloMosaic.Lib.ValueIdx

noncomputable section

namespace Cert.KernelIdeal.ArrayValue

open Cert.KernelIdeal Cert.KernelIdeal.Gen Cert.KernelIdeal.TileValue
open Idealize.ShloMosaic Idealize.ShloMosaic.TcCoe Idealize.ShloMosaic.ValueIdx Idealize.SL.Sem Cert.Affinity
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl

/-- The six index maps at a point, relative to the first output's (matrix, row block, column block): X and Ux
    follow the matrix and the row block, Y and Uy the matrix and the column block, all four take every row, and the
    second output's map is the first's. -/
theorem maps : ∀ t : Fin cfg0.N,
    win0_0.index t (0 : Fin 3) = win0_4.index t (0 : Fin 3) ∧ win0_0.index t (1 : Fin 3) = 0
    ∧ win0_0.index t (2 : Fin 3) = win0_4.index t (1 : Fin 3)
    ∧ win0_1.index t (0 : Fin 3) = win0_4.index t (0 : Fin 3) ∧ win0_1.index t (1 : Fin 3) = 0
    ∧ win0_1.index t (2 : Fin 3) = win0_4.index t (2 : Fin 3)
    ∧ win0_2.index t (0 : Fin 3) = win0_4.index t (0 : Fin 3) ∧ win0_2.index t (1 : Fin 3) = 0
    ∧ win0_2.index t (2 : Fin 3) = win0_4.index t (1 : Fin 3)
    ∧ win0_3.index t (0 : Fin 3) = win0_4.index t (0 : Fin 3) ∧ win0_3.index t (1 : Fin 3) = 0
    ∧ win0_3.index t (2 : Fin 3) = win0_4.index t (2 : Fin 3)
    ∧ win0_5.index t (0 : Fin 3) = win0_4.index t (0 : Fin 3) ∧ win0_5.index t (1 : Fin 3) = win0_4.index t (1 : Fin 3)
    ∧ win0_5.index t (2 : Fin 3) = win0_4.index t (2 : Fin 3) :=
  (by decide +kernel : ∀ t : Fin grid0.N, _)

/-- Every (matrix, row block, column block) is some point's. -/
theorem onto_Me : ∀ (q0 : Fin 8) (q1 : Fin 2) (q2 : Fin 4), ∃ t : Fin cfg0.N, win0_4.index t = ![q0.val, q1.val, q2.val] :=
  (by decide +kernel : ∀ (q0 : Fin 8) (q1 : Fin 2) (q2 : Fin 4), ∃ t : Fin grid0.N, win0_4.index t = ![q0.val, q1.val, q2.val])

theorem onto_Mp : ∀ (q0 : Fin 8) (q1 : Fin 2) (q2 : Fin 4), ∃ t : Fin cfg0.N, win0_5.index t = ![q0.val, q1.val, q2.val] :=
  (by decide +kernel : ∀ (q0 : Fin 8) (q1 : Fin 2) (q2 : Fin 4), ∃ t : Fin grid0.N, win0_5.index t = ![q0.val, q1.val, q2.val])

/-! ## The loaded blocks are pieces of the argument arrays -/

/-- Row `r` of column `n` of the X block at point `t` is X at (matrix, r, 1024 · row block + n). -/
theorem read_X (c : Dev nD) (t : Fin cfg0.N) (r : Fin 512) (n : Fin 1024) (i : S8x512x2048.Idx)
    (h0 : (i 0).val = win0_4.index t (0 : Fin 3)) (h1 : (i 1).val = r.val)
    (h2 : (i 2).val = win0_4.index t (1 : Fin 3) * 1024 + n.val) :
    iblk m c 0 t (ix3 (0 : Fin 1) r n) = V m c main_arg0 i := by
  obtain ⟨e0, e1, e2, -⟩ := maps t
  show V m c main_arg0 (((cfg0.win 0).blk t).view.emb (ix3 (0 : Fin 1) r n)) = V m c main_arg0 i
  refine congrArg (V m c main_arg0) (funext fun a => Fin.ext ?_)
  match a with
  | ⟨0, _⟩ => show win0_0.index t (0 : Fin 3) * 1 + 1 * 0 = (i 0).val; omega
  | ⟨1, _⟩ => show win0_0.index t (1 : Fin 3) * 512 + 1 * r.val = (i 1).val; omega
  | ⟨2, _⟩ => show win0_0.index t (2 : Fin 3) * 1024 + 1 * n.val = (i 2).val; omega

/-- Row `r` of column `k` of the Y block at point `t` is Y at (matrix, r, 512 · column block + k). -/
theorem read_Y (c : Dev nD) (t : Fin cfg0.N) (r : Fin 512) (k : Fin 512) (i : S8x512x2048.Idx)
    (h0 : (i 0).val = win0_4.index t (0 : Fin 3)) (h1 : (i 1).val = r.val)
    (h2 : (i 2).val = win0_4.index t (2 : Fin 3) * 512 + k.val) :
    iblk m c 1 t (ix3 (0 : Fin 1) r k) = V m c main_arg1 i := by
  obtain ⟨-, -, -, e0, e1, e2, -⟩ := maps t
  show V m c main_arg1 (((cfg0.win 1).blk t).view.emb (ix3 (0 : Fin 1) r k)) = V m c main_arg1 i
  refine congrArg (V m c main_arg1) (funext fun a => Fin.ext ?_)
  match a with
  | ⟨0, _⟩ => show win0_1.index t (0 : Fin 3) * 1 + 1 * 0 = (i 0).val; omega
  | ⟨1, _⟩ => show win0_1.index t (1 : Fin 3) * 512 + 1 * r.val = (i 1).val; omega
  | ⟨2, _⟩ => show win0_1.index t (2 : Fin 3) * 512 + 1 * k.val = (i 2).val; omega

/-- The Ux block likewise. -/
theorem read_Ux (c : Dev nD) (t : Fin cfg0.N) (r : Fin 512) (n : Fin 1024) (i : S8x512x2048.Idx)
    (h0 : (i 0).val = win0_4.index t (0 : Fin 3)) (h1 : (i 1).val = r.val)
    (h2 : (i 2).val = win0_4.index t (1 : Fin 3) * 1024 + n.val) :
    iblk m c 2 t (ix3 (0 : Fin 1) r n) = V m c main_arg2 i := by
  obtain ⟨-, -, -, -, -, -, e0, e1, e2, -⟩ := maps t
  show V m c main_arg2 (((cfg0.win 2).blk t).view.emb (ix3 (0 : Fin 1) r n)) = V m c main_arg2 i
  refine congrArg (V m c main_arg2) (funext fun a => Fin.ext ?_)
  match a with
  | ⟨0, _⟩ => show win0_2.index t (0 : Fin 3) * 1 + 1 * 0 = (i 0).val; omega
  | ⟨1, _⟩ => show win0_2.index t (1 : Fin 3) * 512 + 1 * r.val = (i 1).val; omega
  | ⟨2, _⟩ => show win0_2.index t (2 : Fin 3) * 1024 + 1 * n.val = (i 2).val; omega

/-- The Uy block likewise. -/
theorem read_Uy (c : Dev nD) (t : Fin cfg0.N) (r : Fin 512) (k : Fin 512) (i : S8x512x2048.Idx)
    (h0 : (i 0).val = win0_4.index t (0 : Fin 3)) (h1 : (i 1).val = r.val)
    (h2 : (i 2).val = win0_4.index t (2 : Fin 3) * 512 + k.val) :
    iblk m c 3 t (ix3 (0 : Fin 1) r k) = V m c main_arg3 i := by
  obtain ⟨-, -, -, -, -, -, -, -, -, e0, e1, e2, -⟩ := maps t
  show V m c main_arg3 (((cfg0.win 3).blk t).view.emb (ix3 (0 : Fin 1) r k)) = V m c main_arg3 i
  refine congrArg (V m c main_arg3) (funext fun a => Fin.ext ?_)
  match a with
  | ⟨0, _⟩ => show win0_3.index t (0 : Fin 3) * 1 + 1 * 0 = (i 0).val; omega
  | ⟨1, _⟩ => show win0_3.index t (1 : Fin 3) * 512 + 1 * r.val = (i 1).val; omega
  | ⟨2, _⟩ => show win0_3.index t (2 : Fin 3) * 512 + 1 * k.val = (i 2).val; omega

/-! ## What a point writes back -/

/-- Point `t` writes back its block of `Me` of X and Y as the region finds them. -/
theorem wrote_Me (c : Dev nD) (t : Fin cfg0.N) :
    (dats m 0 c).flushed 4 t
      = ((cfg0.win 4).blk t).view.read (Elt Ideal) (Me (V m c main_arg0) (V m c main_arg1)) := by
  rw [Value.flushed4]
  unfold out0_4
  simp only [View.ld_unit_zero (S := S1x512x1024) zero3, View.ld_unit_zero (S := S1x512x512) zero3]
  funext y
  show View.canon ([⟨r0_2, k0_pay1 (k0_pay4 (iblk m c 0 t) (iblk m c 1 t)) (k0_pay5 (F := Ideal))⟩] :
      List (View.Piece (Elt Ideal) S1x1024x512 .f32)) y
    = Me (V m c main_arg0) (V m c main_arg1) (((cfg0.win 4).blk t).view.emb y)
  refine (Value.canon4_eq (iblk m c 0 t) (iblk m c 1 t) y).trans ?_
  obtain ⟨u, n, k, rfl⟩ : ∃ (u : Fin 1) (n : Fin 1024) (k : Fin 512), y = ix3 u n k := ⟨y 0, y 1, y 2, eq_ix3 y⟩
  refine (block_Me (iblk m c 0 t) (iblk m c 1 t) u n k).trans ?_
  have hu : u.val = 0 := by omega
  have key : ∀ i : S8x2048x2048.Idx, (i 0).val = win0_4.index t (0 : Fin 3) * 1 + 1 * u.val →
      (i 1).val = win0_4.index t (1 : Fin 3) * 1024 + 1 * n.val →
      (i 2).val = win0_4.index t (2 : Fin 3) * 512 + 1 * k.val →
      affinity (tcol (iblk m c 0 t) n) (tcol (iblk m c 1 t) k) = Me (V m c main_arg0) (V m c main_arg1) i := by
    intro i h0 h1 h2
    show _ = affinity (col (V m c main_arg0) (i 0) (i 1)) (col (V m c main_arg1) (i 0) (i 2))
    refine congrArg₂ affinity (funext fun r => ?_) (funext fun r => ?_)
    · exact read_X m c t r n (ix3 (i 0) r (i 1)) (by show (i 0).val = _; omega) rfl (by show (i 1).val = _; omega)
    · exact read_Y m c t r k (ix3 (i 0) r (i 2)) (by show (i 0).val = _; omega) rfl (by show (i 2).val = _; omega)
  exact key _ rfl rfl rfl

/-- Point `t` writes back its block of `Mp` of Ux and Uy as the region finds them. -/
theorem wrote_Mp (c : Dev nD) (t : Fin cfg0.N) :
    (dats m 0 c).flushed 5 t
      = ((cfg0.win 5).blk t).view.read (Elt Ideal) (Mp (V m c main_arg2) (V m c main_arg3)) := by
  rw [Value.flushed5]
  unfold out0_5
  simp only [View.ld_unit_zero (S := S1x512x1024) zero3, View.ld_unit_zero (S := S1x512x512) zero3]
  funext y
  show View.canon ([⟨r0_2, k0_pay2 (k0_pay3 (iblk m c 2 t) (iblk m c 3 t))⟩] :
      List (View.Piece (Elt Ideal) S1x1024x512 .f32)) y
    = Mp (V m c main_arg2) (V m c main_arg3) (((cfg0.win 5).blk t).view.emb y)
  refine (Value.canon5_eq (iblk m c 2 t) (iblk m c 3 t) y).trans ?_
  obtain ⟨u, n, k, rfl⟩ : ∃ (u : Fin 1) (n : Fin 1024) (k : Fin 512), y = ix3 u n k := ⟨y 0, y 1, y 2, eq_ix3 y⟩
  refine (block_Mp (iblk m c 2 t) (iblk m c 3 t) u n k).trans ?_
  have hu : u.val = 0 := by omega
  obtain ⟨-, -, -, -, -, -, -, -, -, -, -, -, f0, f1, f2⟩ := maps t
  have key : ∀ i : S8x2048x2048.Idx, (i 0).val = win0_5.index t (0 : Fin 3) * 1 + 1 * u.val →
      (i 1).val = win0_5.index t (1 : Fin 3) * 1024 + 1 * n.val →
      (i 2).val = win0_5.index t (2 : Fin 3) * 512 + 1 * k.val →
      pairing (tcol (iblk m c 2 t) n) (tcol (iblk m c 3 t) k) = Mp (V m c main_arg2) (V m c main_arg3) i := by
    intro i h0 h1 h2
    show _ = pairing (col (V m c main_arg2) (i 0) (i 1)) (col (V m c main_arg3) (i 0) (i 2))
    refine congrArg₂ pairing (funext fun r => ?_) (funext fun r => ?_)
    · exact read_Ux m c t r n (ix3 (i 0) r (i 1)) (by show (i 0).val = _; omega) rfl (by show (i 1).val = _; omega)
    · exact read_Uy m c t r k (ix3 (i 0) r (i 2)) (by show (i 0).val = _; omega) rfl (by show (i 2).val = _; omega)
  exact key _ rfl rfl rfl

/-! ## Every entry is written -/

/-- An entry is in point `t`'s block of the first result iff each coordinate is in the block's range. -/
theorem mem_block_Me (t : Fin cfg0.N) (i : S8x2048x2048.Idx) :
    i ∈ ((cfg0.win 4).blk t).view.set ↔ ∀ a : Fin 3, win0_4.index t a * S1x1024x512.size a ≤ (i a).val
      ∧ (i a).val < win0_4.index t a * S1x1024x512.size a + S1x1024x512.size a := by
  show i ∈ ((View.whole main_v0_0).slice (win0_4.rect t)).set ↔ _
  rw [View.set_slice_whole, Rect.mem_set_unit]
  exact Iff.rfl

theorem mem_block_Mp (t : Fin cfg0.N) (i : S8x2048x2048.Idx) :
    i ∈ ((cfg0.win 5).blk t).view.set ↔ ∀ a : Fin 3, win0_5.index t a * S1x1024x512.size a ≤ (i a).val
      ∧ (i a).val < win0_5.index t a * S1x1024x512.size a + S1x1024x512.size a := by
  show i ∈ ((View.whole main_v0_1).slice (win0_5.rect t)).set ↔ _
  rw [View.set_slice_whole, Rect.mem_set_unit]
  exact Iff.rfl

/-- Entry (b, r, s) of the first result is in the block of the point (b, r / 1024, s / 512), which writes back. -/
theorem covered_Me (i : S8x2048x2048.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 2048 := (i 2).isLt
  obtain ⟨t, ht⟩ := onto_Me ⟨(i 0).val, by omega⟩ ⟨(i 1).val / 1024, by omega⟩ ⟨(i 2).val / 512, by omega⟩
  have q0 : win0_4.index t (0 : Fin 3) = (i 0).val := congrFun ht 0
  have q1 : win0_4.index t (1 : Fin 3) = (i 1).val / 1024 := congrFun ht 1
  have q2 : win0_4.index t (2 : Fin 3) = (i 2).val / 512 := congrFun ht 2
  refine ⟨t, flush0_4 t, ?_⟩
  rw [mem_block_Me]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 512 ≤ (i 2).val ∧ (i 2).val < win0_4.index t (2 : Fin 3) * 512 + 512; omega

theorem covered_Mp (i : S8x2048x2048.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 2048 := (i 2).isLt
  obtain ⟨t, ht⟩ := onto_Mp ⟨(i 0).val, by omega⟩ ⟨(i 1).val / 1024, by omega⟩ ⟨(i 2).val / 512, by omega⟩
  have q0 : win0_5.index t (0 : Fin 3) = (i 0).val := congrFun ht 0
  have q1 : win0_5.index t (1 : Fin 3) = (i 1).val / 1024 := congrFun ht 1
  have q2 : win0_5.index t (2 : Fin 3) = (i 2).val / 512 := congrFun ht 2
  refine ⟨t, flush0_5 t, ?_⟩
  rw [mem_block_Mp]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 512 ≤ (i 2).val ∧ (i 2).val < win0_5.index t (2 : Fin 3) * 512 + 512; omega

/-! ## The result arrays after the run -/

/-- The first result array after the run is `Me` of X and Y as launched. -/
theorem final_Me (c : Dev nD) :
    (dats m 0 c).arrAt 4 cfg0.N
      = Me (m ((c : Thread nD τ).loc main_arg0)) (m ((c : Thread nD τ).loc main_arg1)) :=
  (dats m 0 c).arrAt_eq_of_cover 4 (Me (V m c main_arg0) (V m c main_arg1)) (fun t _ => wrote_Me m c t) covered_Me

/-- The second result array after the run is `Mp` of Ux and Uy as launched. -/
theorem final_Mp (c : Dev nD) :
    (dats m 0 c).arrAt 5 cfg0.N
      = Mp (m ((c : Thread nD τ).loc main_arg2)) (m ((c : Thread nD τ).loc main_arg3)) :=
  (dats m 0 c).arrAt_eq_of_cover 5 (Mp (V m c main_arg2) (V m c main_arg3)) (fun t _ => wrote_Mp m c t) covered_Mp

/-- Every weakly fair execution of the kernel's program terminates with the two results at `Me` and `Mp` of the
    arguments as launched, and the arguments unchanged. -/
theorem run : θ_run defs (onTc (τ := τ) (main (F := Ideal))) ⟨m, fun _ => 0, ρ⟩ fun r => ∀ c : Dev nD,
      r.2.mem ((c : Thread nD τ).loc main_v0_0)
        = Me (m ((c : Thread nD τ).loc main_arg0)) (m ((c : Thread nD τ).loc main_arg1))
      ∧ r.2.mem ((c : Thread nD τ).loc main_v0_1)
        = Mp (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_Me m c), (h c).2.1.trans (final_Mp m c), (h c).2.2⟩)
    (Value.run_blocks m ρ)

end Cert.KernelIdeal.ArrayValue

end
-- ==== Proof.lean ====
/-
  The Gaussian affinity and bilinear pairing of two stacks of column families, computed block by block, against the
  same two arrays computed whole.

  For arguments X, Y, Ux, Uy (eight 512 × 2048 matrices each) both programs return
    Me[b, n, m] = exp(−((⟨x, x⟩ + ⟨y, y⟩) − 2 · ⟨x, y⟩) / 1) · 1      x column n of X_b, y column m of Y_b,
    Mp[b, n, m] = ⟨u, v⟩ · 1                                            u column n of Ux_b, v column m of Uy_b,
  with ⟨x, y⟩ = Σ_k x_k · y_k over the 512 rows (Proof/Affinity.lean). One program computes them on a grid of
  8 × 2 × 4 points, each producing a 1024 × 512 block of both results from 1024 columns of X_b, Ux_b and 512
  columns of Y_b, Uy_b (Proof/TileEntry.lean: a block's entry; Proof/TilesToArray.lean: the blocks tile the
  results). The other computes the inner squares, the product and the entrywise tail on the whole arrays
  (Proof/RefIsAffinity.lean). Read on the extended reals the two agree entry by entry: sums and products are the
  same sums and products whatever their grouping into blocks, a change of float format is the identity, the test
  "differs from itself" holds of no extended real in either spelling, and `0 − d = −d`. The equality holds for
  every input, finite or not; the precondition is not used.

  Each program's frame (it runs to the end, faults nowhere, leaves its arguments as they were) is the generated
  one for the two programs with a kernel, and for the whole-array program its run with the results dropped. The
  idealized kernel is the kernel's own text read on the extended reals: nothing was rewritten, so `preserves` is
  `True`.
-/
import proofs.«133344_j59253368816316_2_alg».proof.Defs
import proofs.«133344_j59253368816316_2_alg».proof.Proof.Gen.Kernel
import proofs.«133344_j59253368816316_2_alg».proof.Proof.Gen.Kernel.Skeleton
import proofs.«133344_j59253368816316_2_alg».proof.Proof.Gen.Kernel.Launch
import proofs.«133344_j59253368816316_2_alg».proof.Proof.Gen.Kernel.Points
import proofs.«133344_j59253368816316_2_alg».proof.Proof.Gen.Kernel.Frame
import proofs.«133344_j59253368816316_2_alg».proof.Proof.Gen.KernelIdeal
import proofs.«133344_j59253368816316_2_alg».proof.Proof.Gen.KernelIdeal.Skeleton
import proofs.«133344_j59253368816316_2_alg».proof.Proof.Gen.KernelIdeal.Launch
import proofs.«133344_j59253368816316_2_alg».proof.Proof.Gen.KernelIdeal.Points
import proofs.«133344_j59253368816316_2_alg».proof.Proof.Gen.KernelIdeal.Frame
import proofs.«133344_j59253368816316_2_alg».proof.Proof.Gen.ReferenceIdeal
import proofs.«133344_j59253368816316_2_alg».proof.Proof.Gen.Pre_finite_inputs
import proofs.«133344_j59253368816316_2_alg».proof.Proof.Gen.KernelIdeal.Value
import proofs.«133344_j59253368816316_2_alg».proof.Proof.Gen.ReferenceIdeal.Run
import proofs.«133344_j59253368816316_2_alg».proof.Proof.Gen.ReferenceIdeal.Read
import proofs.«133344_j59253368816316_2_alg».proof.Proof.Affinity
import proofs.«133344_j59253368816316_2_alg».proof.Proof.RefIsAffinity
import proofs.«133344_j59253368816316_2_alg».proof.Proof.TilesToArray
import Idealize.ShloMosaic.Adequacy
import Idealize.ShloMosaic.Init

noncomputable section

namespace Cert.Proof

open Idealize.ShloMosaic Idealize.ShloMosaic.TcCoe Idealize.SL.Sem

/-- The kernel's program, word level: the generated frame. -/
theorem frame_kernel : Cert.frame_Kernel := fun m ρ _ => Cert.Kernel.Gen.frame m ρ

/-- The kernel's program on the extended reals: the generated frame. -/
theorem frame_kernel_ideal : Cert.frame_KernelIdeal := fun m ρ _ => Cert.KernelIdeal.Gen.frame m ρ

/-- The whole-array program: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing was rewritten on the way to the extended reals. -/
theorem preserves : Cert.preserves_Kernel_KernelIdeal := trivial

/-- From memories that agree on the four arguments both programs end with the first result at `Me` of X and Y and
    the second at `Mp` of Ux and Uy: the block-by-block run by `ArrayValue.run`, the whole-array run by its
    operations read as `Me` and `Mp` (`RefValue.ref_Me`, `RefValue.ref_Mp`). -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v20_eq, Cert.ReferenceIdeal.RefValue.ref_Me, (hagree c).1, (hagree c).2.1]
  · rw [Cert.ReferenceIdeal.Read.val_main_v23_eq, Cert.ReferenceIdeal.RefValue.ref_Mp, (hagree c).2.2.1,
      (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
